-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn {F : FTy → Type} [FloatOps F] (main_arg0 : FVec F S4x2048x4096 .f32) (main_arg1 : FVec F S16x4096 .f32) (main_arg2 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  main_v13
-- ==== Kernel.lean ====
abbrev S4x2048x4096 : Shape := ⟨3, ![4, 2048, 4096]⟩
abbrev S16x4096 : Shape := ⟨2, ![16, 4096]⟩
abbrev S4096x16 : Shape := ⟨2, ![4096, 16]⟩
abbrev S8192x4096 : Shape := ⟨2, ![8192, 4096]⟩
abbrev S_ : Shape := ⟨0, ![]⟩
abbrev S512x4096 : Shape := ⟨2, ![512, 4096]⟩
abbrev S512x16 : Shape := ⟨2, ![512, 16]⟩

abbrev nBuf : Space → Nat
  | .hbm => 12
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S16x4096, .f32⟩
  | .hbm, ⟨2, _⟩ => ⟨S4096x16, .f32⟩
  | .hbm, ⟨3, _⟩ => ⟨S8192x4096, .f32⟩
  | .hbm, ⟨4, _⟩ => ⟨S16x4096, .bf16⟩
  | .hbm, ⟨5, _⟩ => ⟨S16x4096, .f32⟩
  | .hbm, ⟨6, _⟩ => ⟨S_, .f32⟩
  | .hbm, ⟨7, _⟩ => ⟨S16x4096, .f32⟩
  | .hbm, ⟨8, _⟩ => ⟨S16x4096, .f32⟩
  | .hbm, ⟨9, _⟩ => ⟨S16x4096, .bf16⟩
  | .hbm, ⟨10, _⟩ => ⟨S8192x4096, .f32⟩
  | .hbm, ⟨11, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S16x4096, .bf16⟩
  | .local _ .vmem, ⟨3, _⟩ => ⟨S16x4096, .bf16⟩
  | .local _ .vmem, ⟨4, _⟩ => ⟨S512x4096, .f32⟩
  | .local _ .vmem, ⟨5, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x4096_S8192x4096 : S4x2048x4096.ShapeCasts S8192x4096
  bitsLt_bf16_f32 : FTy.bits .bf16 < FTy.bits .f32
  transposes_S4096x16_S16x4096_1_0 : S4096x16.Transposes [1, 0] S16x4096
  bcast_S_S16x4096 : S_.BroadcastsInDim S16x4096 (![] : Fin 0 → Fin S16x4096.rank)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  shapeCasts_S8192x4096_S4x2048x4096 : S8192x4096.ShapeCasts S4x2048x4096
  dot_S512x4096_S16x4096_S512x16_1_1_0_0_n_n_wf : DotDims.WF S512x4096 S16x4096 S512x16 [1] [1] [0] [0] [] []
  dot_S512x16_S16x4096_S512x4096_1_0_0_1_n_n_wf : DotDims.WF S512x16 S16x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .bf16 = 32 ∨ (Rect.block (s := S16x4096) S16x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .bf16 = 32 ∨ (Rect.block (s := S16x4096) S16x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .f32 = 32 ∨ (Rect.block (s := S8192x4096) S512x4096.size (cc0_transform_3 i) (hinb0_3 i)).WholeWords (EltTy.packing .f32)

variable [Facts₀]

def dot_S512x4096_S16x4096_S512x16_1_1_0_0_n_n : DotDims S512x4096 S16x4096 S512x16 where
  lhsContracting := [1]
  rhsContracting := [1]
  lhsNonContracting := [0]
  rhsNonContracting := [0]
  lhsBatch := []
  rhsBatch := []
  wf := dot_S512x4096_S16x4096_S512x16_1_1_0_0_n_n_wf
def dot_S512x16_S16x4096_S512x4096_1_0_0_1_n_n : DotDims S512x16 S16x4096 S512x4096 where
  lhsContracting := [1]
  rhsContracting := [0]
  lhsNonContracting := [0]
  rhsNonContracting := [1]
  lhsBatch := []
  rhsBatch := []
  wf := dot_S512x16_S16x4096_S512x4096_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16x4096 : Shape := ⟨2, ![16, 4096]⟩
abbrev S4096x16 : Shape := ⟨2, ![4096, 16]⟩
abbrev S4x2048x16 : Shape := ⟨3, ![4, 2048, 16]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16x4096, .f32⟩
  | .hbm, ⟨2, _⟩ => ⟨S4096x16, .f32⟩
  | .hbm, ⟨3, _⟩ => ⟨S4x2048x16, .f32⟩
  | .hbm, ⟨4, _⟩ => ⟨S4x2048x4096, .f32⟩
  | .hbm, ⟨5, _⟩ => ⟨S_, .f32⟩
  | .hbm, ⟨6, _⟩ => ⟨S4x2048x4096, .f32⟩
  | .hbm, ⟨7, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.LoraSpec.lean ====
/-
  The low-rank update as ONE function of its three argument arrays, and the law that joins its two spellings.

  For `x : [4, 2048, 4096]`, `A : [16, 4096]` and `B : [4096, 16]` the update is

      out[p, q, o] = (Σ_r h[p, q, r] · B[o, r]) · 2,        h[p, q, r] = Σ_d x[p, q, d] · A[r, d],

  a rank-16 product scaled by `alpha / rank = 2`. One program scales every entry of `B` before the second product,
  the other scales the finished sum. On the extended reals a product is associative, and a factor that is a
  NONNEGATIVE REAL distributes over any sum — also over one that meets `+∞` and `-∞` — so the two agree at every
  extended-real input: no entry has to be finite for it.
-/
import Idealize.ShloMosaic.PureOps.Ideal.Laws
import Idealize.ShloMosaic.Lib.ValueIdx

noncomputable section

open scoped BigOperators

namespace Cert.Lora

open Idealize.ShloMosaic Idealize.ShloMosaic.ValueIdx

/-- The shape of `x` and of the result. -/
abbrev SX : Shape := ⟨3, ![4, 2048, 4096]⟩
/-- The shape of `A`. -/
abbrev SA : Shape := ⟨2, ![16, 4096]⟩
/-- The shape of `B`. -/
abbrev SB : Shape := ⟨2, ![4096, 16]⟩

/-- The scale `alpha / rank`, as the extended real its f32 word denotes. -/
def scale : EReal := Ideal.ofBits .f32 0x40000000#32

/-- That word is the real number 2. -/
theorem scale_eq : scale = ((2 : ℝ) : EReal) := by
  unfold scale
  simp [Ideal.ofBits, Ideal.ieee, -EReal.coe_mul]
  norm_num

theorem scale_nonneg : (0 : EReal) ≤ scale := by
  rw [scale_eq]; exact_mod_cast (by norm_num : (0 : ℝ) ≤ 2)

theorem scale_ne_top : scale ≠ ⊤ := by
  rw [scale_eq]; exact EReal.coe_ne_top _

/-- `h[p, q, r]`: row `(p, q)` of `x` against row `r` of `A`. -/
def hidden (x : SX.Idx → EReal) (a : SA.Idx → EReal) (p : Fin 4) (q : Fin 2048) (r : Fin 16) : EReal :=
  ∑ d : Fin 4096, x (ix3 p q d) * a (ix2 r d)

/-- The update, index by index: `h`'s row `(p, q)` against row `o` of `B`, the sum scaled. -/
def lora (x : SX.Idx → EReal) (a : SA.Idx → EReal) (b : SB.Idx → EReal) : SX.Idx → EReal := fun i =>
  (∑ r : Fin 16, hidden x a (i 0) (i 1) r * b (ix2 (i 2) r)) * scale

/-- A nonnegative finite factor distributes over a finite sum of extended reals, whatever the summands. -/
theorem sum_mul_of_nonneg {ι : Type*} (s : Finset ι) (f : ι → EReal) {c : EReal} (h0 : 0 ≤ c) (ht : c ≠ ⊤) :
    (∑ r ∈ s, f r) * c = ∑ r ∈ s, f r * c := by
  classical
  induction s using Finset.induction_on with
  | empty => simp
  | insert a s ha ih =>
    rw [Finset.sum_insert ha, Finset.sum_insert ha, EReal.right_distrib_of_nonneg_of_ne_top h0 ht, ih]

/-- The scale on every entry of `B`'s row, or on the finished sum: one extended real. -/
theorem scale_inside (h b : Fin 16 → EReal) :
    ∑ r : Fin 16, h r * (b r * scale) = (∑ r : Fin 16, h r * b r) * scale := by
  rw [sum_mul_of_nonneg _ _ scale_nonneg scale_ne_top]
  exact Finset.sum_congr rfl fun r _ => (mul_assoc _ _ _).symm

end Cert.Lora

end
-- ==== Proof.LoraReference.lean ====
/-
  The reference computes the update as specified.

  Its two contractions read, at an index `(p, q, r)` and `(p, q, o)`, the sums `Σ_d x[p, q, d] · A[r, d]` and
  `Σ_r h[p, q, r] · B[o, r]`; the last operation multiplies every entry by the broadcast constant 2. Reading the
  three stages at an index, outermost first, gives the specification's term: only the index functions have to be
  named by their coordinates.
-/
import proofs.«145589_j14998025797849_2_alg».proof.Proof.Gen.ReferenceIdeal.Read
import proofs.«145589_j14998025797849_2_alg».proof.Proof.LoraSpec

noncomputable section

open scoped BigOperators

namespace Cert.Lora.Reference

open Idealize.ShloMosaic Idealize.ShloMosaic.ValueIdx Cert.ReferenceIdeal Cert.ReferenceIdeal.Read Cert.Lora

/-- The reference's result, as a function of its three arguments, is the update. -/
theorem result_eq (x : SX.Idx → EReal) (a : SA.Idx → EReal) (b : SB.Idx → EReal) :
    val_main_v3 (F := Ideal) x a b = lora x a b := by
  funext i
  rw [val_main_v3_apply, val_main_v1_apply, val_main_v2_apply, val_main_cst_apply]
  simp only [val_main_v0_apply]
  -- where each stage reads its operands, coordinate by coordinate
  have ex : ∀ (r : Fin 16) (d : Fin 4096), lidx_main_v0 (lidx_main_v1 i r) d = ix3 (i 0) (i 1) d := fun r d =>
    funext fun ax => Fin.ext (by match ax with | ⟨0, _⟩ => rfl | ⟨1, _⟩ => rfl | ⟨2, _⟩ => rfl)
  have ea : ∀ (r : Fin 16) (d : Fin 4096), ridx_main_v0 (lidx_main_v1 i r) d = ix2 r d := fun r d =>
    funext fun ax => Fin.ext (by match ax with | ⟨0, _⟩ => rfl | ⟨1, _⟩ => rfl)
  have eb : ∀ r : Fin 16, ridx_main_v1 i r = ix2 (i 2) r := fun r =>
    funext fun ax => Fin.ext (by match ax with | ⟨0, _⟩ => rfl | ⟨1, _⟩ => rfl)
  simp only [ex, ea, eb, Ideal.mulf_def, Ideal.ofBits_def]
  rfl

end Cert.Lora.Reference

end
-- ==== Proof.LibMatmulRead.lean ====
/-
  A matrix product read at an entry.

  For a product of an `[M, K]` matrix by a `[K, N]` matrix whose dimension record contracts the left operand's columns
  against the right operand's rows, the entry `(p, j)` of the product into a zero accumulator is `∑ₖ L(p, k) · R(k, j)`:
  the contraction index, a one-axis index, is re-indexed by its single coordinate.
-/
import Idealize.ShloMosaic.PureOps.Ideal.Laws
import Idealize.ShloMosaic.Lib.ValueIdx

noncomputable section

namespace Cert.Contract

open Idealize.ShloMosaic Idealize.ShloMosaic.ValueIdx

/-- Entry `(p, j)` of `L · R` accumulated from zero, given where the record sends an output index and a contraction
    index in each operand (`hl0 … hr1`: rows of the left operand follow the output's rows, its columns the contraction;
    rows of the right operand follow the contraction, its columns the output's columns). -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (L : FVec Ideal ⟨2, ![M, K]⟩ φ₁) (R : FVec Ideal ⟨2, ![K, N]⟩ φ₂) (p : Fin M) (j : Fin N) :
    FloatOps.matmul D prec L R (constant (F := Ideal) ⟨2, ![M, N]⟩ .f32 0x00000000#32) (ix2 p j)
      = ∑ k : Fin K, L (ix2 p k) * R (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.Contract

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LoraBody.lean ====
/-
  What the kernel body computes from its three blocks, at an entry.

  The body holds a block `X : [512, 4096]` of rows of `x`, all of `A : [16, 4096]` and the scaled transpose
  `B' : [16, 4096]` of `B`. It contracts `X` with `A` over their SECOND axes (`X · Aᵀ : [512, 16]`) and the result
  with `B'` over its second and `B'`'s first axis (`[512, 16] · [16, 4096]`), each into a zero accumulator; at the ideal
  values the changes of float format between them are the identity. So entry `(p, o)` of what it stores is
  `Σ_r (Σ_d X[p, d] · A[r, d]) · B'[r, o]`.
-/
import proofs.«145589_j14998025797849_2_alg».proof.Proof.Gen.KernelIdeal.Skeleton
import proofs.«145589_j14998025797849_2_alg».proof.Proof.LibMatmulRead
import proofs.«145589_j14998025797849_2_alg».proof.Proof.LibRowsProduct
import Idealize.ShloMosaic.Lib.Pipeline.Value
import Idealize.ShloMosaic.Lib.ValueIdx
import Idealize.ShloMosaic.PureOps.Ideal.Laws

noncomputable section

open scoped BigOperators

namespace Cert.Lora.Body

open Idealize.ShloMosaic Idealize.ShloMosaic.ValueIdx Cert.KernelIdeal Cert.KernelIdeal.Gen

/-- The first product, `X · Aᵀ`, at `(p, r)`: row `p` of `X` against row `r` of `A`. -/
theorem first_apply (X : FVec Ideal S512x4096 .bf16) (A : FVec Ideal S16x4096 .bf16) (p : Fin 512) (r : Fin 16) :
    FloatOps.matmul dot_S512x4096_S16x4096_S512x16_1_1_0_0_n_n none X A (constant S512x16 .f32 0x00000000#32) (ix2 p r)
      = ∑ d : Fin 4096, X (ix2 p d) * A (ix2 r d) :=
  Cert.RowsProduct.matmul_nt_apply (m := 512) (n := 16) (k := 4096) Facts₀.dot_S512x4096_S16x4096_S512x16_1_1_0_0_n_n_wf none X A p r

/-- Where the second product's dimension record sends an output index and a contraction index in each operand. -/
theorem second_l0 (i : S512x4096.Idx) (q : dot_S512x16_S16x4096_S512x4096_1_0_0_1_n_n.contr.Idx) :
    (dot_S512x16_S16x4096_S512x4096_1_0_0_1_n_n.lhsIdx i q 0).val = (i 0).val := by
  unfold DotDims.lhsIdx
  rw [dif_neg (show ¬(0 : Fin S512x16.rank) ∈ dot_S512x16_S16x4096_S512x4096_1_0_0_1_n_n.lhsBatch by decide),
    dif_pos (show (0 : Fin S512x16.rank) ∈ dot_S512x16_S16x4096_S512x4096_1_0_0_1_n_n.lhsNonContracting by decide)]
  rfl
theorem second_l1 (i : S512x4096.Idx) (q : dot_S512x16_S16x4096_S512x4096_1_0_0_1_n_n.contr.Idx) :
    (dot_S512x16_S16x4096_S512x4096_1_0_0_1_n_n.lhsIdx i q 1).val = (q ⟨0, by decide⟩).val :=
  dot_S512x16_S16x4096_S512x4096_1_0_0_1_n_n.lhsIdx_val_of_single rfl i q
theorem second_r0 (i : S512x4096.Idx) (q : dot_S512x16_S16x4096_S512x4096_1_0_0_1_n_n.contr.Idx) :
    (dot_S512x16_S16x4096_S512x4096_1_0_0_1_n_n.rhsIdx i q 0).val = (q ⟨0, by decide⟩).val :=
  dot_S512x16_S16x4096_S512x4096_1_0_0_1_n_n.rhsIdx_val_of_single rfl i q
theorem second_r1 (i : S512x4096.Idx) (q : dot_S512x16_S16x4096_S512x4096_1_0_0_1_n_n.contr.Idx) :
    (dot_S512x16_S16x4096_S512x4096_1_0_0_1_n_n.rhsIdx i q 1).val = (i 1).val := by
  unfold DotDims.rhsIdx
  rw [dif_neg (show ¬(1 : Fin S16x4096.rank) ∈ dot_S512x16_S16x4096_S512x4096_1_0_0_1_n_n.rhsBatch by decide),
    dif_pos (show (1 : Fin S16x4096.rank) ∈ dot_S512x16_S16x4096_S512x4096_1_0_0_1_n_n.rhsNonContracting by decide)]
  rfl

/-- The second product, `H · B'`, at `(p, o)`: row `p` of `H` against column `o` of `B'`. -/
theorem second_apply (H : FVec Ideal S512x16 .bf16) (B' : FVec Ideal S16x4096 .bf16) (p : Fin 512) (o : Fin 4096) :
    FloatOps.matmul dot_S512x16_S16x4096_S512x4096_1_0_0_1_n_n none H B' (constant S512x4096 .f32 0x00000000#32) (ix2 p o)
      = ∑ r : Fin 16, H (ix2 p r) * B' (ix2 r o) :=
  Cert.Contract.matmul_zero_ix2 (M := 512) (K := 16) (N := 4096) dot_S512x16_S16x4096_S512x4096_1_0_0_1_n_n none rfl rfl
    second_l0 second_l1 second_r0 second_r1 H B' p o

/-- The body's stored value at `(p, o)`. -/
theorem payload_apply (X : Vec Ideal S512x4096 .f32) (A : Vec Ideal S16x4096 .bf16) (B' : Vec Ideal S16x4096 .bf16)
    (p : Fin 512) (o : Fin 4096) :
    k0_pay1 (F := Ideal) X A B' (ix2 p o) = ∑ r : Fin 16, (∑ d : Fin 4096, X (ix2 p d) * A (ix2 r d)) * B' (ix2 r o) := by
  unfold k0_pay1
  simp only [shapeCast_self, matmul]
  rw [second_apply]
  refine Finset.sum_congr rfl fun r _ => ?_
  rw [truncf_apply, first_apply]
  rfl

end Cert.Lora.Body

end
-- ==== Proof.LoraBlocks.lean ====
/-
  From what each grid point writes back to the whole output array.

  The grid has 16 points; point `t` holds rows `512·t … 512·t + 511` of the `[8192, 4096]` layout of `x`, all of
  `A` and all of the scaled transpose `B'`, and writes back the same rows of the output. What it writes at row
  `512·t + p`, column `o` is `Σ_r (Σ_d X[512·t + p, d] · A[r, d]) · B'[r, o]` — one function `flat` of the three arrays
  read at the output's own index. The 16 blocks tile the output array, so after the run the array is `flat`.
-/
import proofs.«145589_j14998025797849_2_alg».proof.Proof.Gen.KernelIdeal.Frame
import proofs.«145589_j14998025797849_2_alg».proof.Proof.LoraBody
import Idealize.ShloMosaic.Lib.Pipeline.Value
import Idealize.ShloMosaic.Lib.ValueIdx

noncomputable section

open scoped BigOperators

namespace Cert.Lora.Blocks

open Idealize.ShloMosaic Idealize.ShloMosaic.TcCoe Idealize.SL.Sem Idealize.ShloMosaic.ValueIdx
open Cert.KernelIdeal Cert.KernelIdeal.Gen
open Idealize.ShloMosaic.Pipeline (Dat)

/-- Entry `(j, o)` of the rank-16 product of `X : [8192, 4096]`, `A : [16, 4096]` and `B' : [16, 4096]`. -/
def flatAt (X : S8192x4096.Idx → EReal) (A B' : S16x4096.Idx → EReal) (j : Fin 8192) (o : Fin 4096) : EReal :=
  ∑ r : Fin 16, (∑ d : Fin 4096, X (ix2 j d) * A (ix2 r d)) * B' (ix2 r o)

/-- The product as an array. -/
def flat (X : S8192x4096.Idx → EReal) (A B' : S16x4096.Idx → EReal) : S8192x4096.Idx → EReal :=
  fun i => flatAt X A B' (i 0) (i 1)

/-- What the body stores at `(p, o)` from blocks that read the arrays `X`, `A`, `B'` at row `j` and column `o'`. -/
theorem point_eq (X0 : Vec Ideal S512x4096 .f32) (A0 B0 : Vec Ideal S16x4096 .bf16)
    (X : S8192x4096.Idx → EReal) (A B' : S16x4096.Idx → EReal) (p : Fin 512) (o : Fin 4096) (j : Fin 8192) (o' : Fin 4096)
    (hx : ∀ d : Fin 4096, X0 (ix2 p d) = X (ix2 j d))
    (ha : ∀ (r : Fin 16) (d : Fin 4096), A0 (ix2 r d) = A (ix2 r d))
    (hb : ∀ r : Fin 16, B0 (ix2 r o) = B' (ix2 r o')) :
    k0_pay1 (F := Ideal) X0 A0 B0 (ix2 p o) = flatAt X A B' j o' := by
  refine (Cert.Lora.Body.payload_apply X0 A0 B0 p o).trans ?_
  unfold flatAt
  refine Finset.sum_congr rfl fun r _ => ?_
  rw [hb r]
  exact congrArg (· * B' (ix2 r o')) (Finset.sum_congr rfl fun d _ => by rw [hx d, ha r d])

variable (m : (ℓ : Loc nD τ sig) → Buf (Elt Ideal) ℓ)

theorem zero_offsets : (![0, 0] : Fin 2 → Nat) = fun _ => 0 := funext fun a => by fin_cases a <;> rfl

/-- The windows' block indices over the grid: the `x` rows and the output rows move with the point, `A` and `B'` stay. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `512·t + p` of the array. -/
def blockRow (t : Fin cfg0.N) (p : Fin 512) : Fin 8192 :=
  ⟨t.val * 512 + p.val, by have := t.isLt; have hN : grid0.N = 16 := N_0; have : t.val < grid0.N := t.isLt; have := p.isLt; omega⟩

/-- The `x` block at point `t` reads the array at the block's rows. -/
theorem read_rows (c : Dev nD) (t : Fin cfg0.N) (p : Fin 512) (d : Fin 4096) :
    (iblk m c 0 t : S512x4096.Idx → EReal) (ix2 p d) = (V m c main_v0 : S8192x4096.Idx → EReal) (ix2 (blockRow t p) d) := by
  obtain ⟨e0, e1, -⟩ := index_facts t
  show (V m c main_v0 : S8192x4096.Idx → EReal) (((cfg0.win 0).blk t).view.emb (ix2 p d)) = _
  refine congrArg (V m c main_v0 : S8192x4096.Idx → EReal) (funext fun a => Fin.ext ?_)
  match a with
  | ⟨0, _⟩ => show win0_0.index t (0 : Fin 2) * 512 + 1 * p.val = t.val * 512 + p.val; omega
  | ⟨1, _⟩ => show win0_0.index t (1 : Fin 2) * 4096 + 1 * d.val = d.val; omega

/-- The `A` block is the whole array at every point. -/
theorem read_a (c : Dev nD) (t : Fin cfg0.N) (r : Fin 16) (d : Fin 4096) :
    (iblk m c 1 t : S16x4096.Idx → EReal) (ix2 r d) = (V m c main_v1 : S16x4096.Idx → EReal) (ix2 r d) := by
  obtain ⟨-, -, e2, e3, -⟩ := index_facts t
  show (V m c main_v1 : S16x4096.Idx → EReal) (((cfg0.win 1).blk t).view.emb (ix2 r d)) = _
  refine congrArg (V m c main_v1 : S16x4096.Idx → EReal) (funext fun a => Fin.ext ?_)
  match a with
  | ⟨0, _⟩ => show win0_1.index t (0 : Fin 2) * 16 + 1 * r.val = r.val; omega
  | ⟨1, _⟩ => show win0_1.index t (1 : Fin 2) * 4096 + 1 * d.val = d.val; omega

/-- So is the `B'` block. -/
theorem read_b (c : Dev nD) (t : Fin cfg0.N) (r : Fin 16) (o : Fin 4096) :
    (iblk m c 2 t : S16x4096.Idx → EReal) (ix2 r o) = (V m c main_v5 : S16x4096.Idx → EReal) (ix2 r o) := by
  obtain ⟨-, -, -, -, e4, e5, -⟩ := index_facts t
  show (V m c main_v5 : S16x4096.Idx → EReal) (((cfg0.win 2).blk t).view.emb (ix2 r o)) = _
  refine congrArg (V m c main_v5 : S16x4096.Idx → EReal) (funext fun a => Fin.ext ?_)
  match a with
  | ⟨0, _⟩ => show win0_2.index t (0 : Fin 2) * 16 + 1 * r.val = r.val; omega
  | ⟨1, _⟩ => show win0_2.index t (1 : Fin 2) * 4096 + 1 * o.val = o.val; omega

/-- Entry `(p, o)` of point `t`'s output block sits at row `512·t + p`, column `o` of the array. -/
theorem out_emb (t : Fin cfg0.N) (p : Fin 512) (o : Fin 4096) :
    (((cfg0.win 3).blk t).view.emb (ix2 p o) : S8192x4096.Idx) = ix2 (blockRow t p) o := by
  obtain ⟨-, -, -, -, -, -, e6, e7⟩ := index_facts t
  refine funext fun a => Fin.ext ?_
  match a with
  | ⟨0, _⟩ => show win0_3.index t (0 : Fin 2) * 512 + 1 * p.val = t.val * 512 + p.val; omega
  | ⟨1, _⟩ => show win0_3.index t (1 : Fin 2) * 4096 + 1 * o.val = o.val; omega

/-- WHAT POINT `t` WRITES BACK is its block of `flat` of the three arrays as the region finds them. -/
theorem flushed_eq (c : Dev nD) (t : Fin cfg0.N) :
    (dats m 0 c).flushed 3 t = ((cfg0.win 3).blk t).view.read (Elt Ideal)
      (flat (V m c main_v0) (V m c main_v1) (V m c main_v5)) := by
  show (cfg0.win 3).cut (grid0.coords t) ((dats m 0 c).after 3 t) = _
  rw [after0_3]
  unfold out0_3
  rw [View.canon_unit_zero zero_offsets]
  simp only [View.ld_unit_zero (S := S512x4096) zero_offsets, View.ld_unit_zero (S := S16x4096) zero_offsets]
  refine funext fun (y : S512x4096.Idx) => ?_
  obtain ⟨p, o, rfl⟩ : ∃ (p : Fin 512) (o : Fin 4096), y = ix2 p o := ⟨y 0, y 1, eq_ix2 y⟩
  show k0_pay1 (iblk m c 0 t) (iblk m c 1 t) (iblk m c 2 t) (ix2 p o)
    = flat (V m c main_v0) (V m c main_v1) (V m c main_v5) (((cfg0.win 3).blk t).view.emb (ix2 p o))
  rw [out_emb t p o]
  exact point_eq (iblk m c 0 t) (iblk m c 1 t) (iblk m c 2 t) (V m c main_v0) (V m c main_v1) (V m c main_v5) p o
    (blockRow t p) o (read_rows m c t p) (read_a m c t) (read_b m c t · o)

/-- An index of the array is in point `t`'s block iff each coordinate is in the block's range on its axis. -/
theorem mem_blk (t : Fin cfg0.N) (i : S8192x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v6).slice (win0_3.rect t)).set ↔ _
  rw [View.set_slice_whole, Rect.mem_set_unit]
  exact Iff.rfl

/-- Every index of the output array is in the block of the point its row falls in. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : grid0.N = 16 := N_0
  have ht : (i 0).val / 512 < grid0.N := by omega
  obtain ⟨-, -, -, -, -, -, e6, e7⟩ := index_facts ⟨(i 0).val / 512, ht⟩
  have e6' : win0_3.index ⟨(i 0).val / 512, ht⟩ (0 : Fin 2) = (i 0).val / 512 := e6
  refine ⟨⟨(i 0).val / 512, ht⟩, flush0_3 _, ?_⟩
  rw [mem_blk]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    omega
  | ⟨1, _⟩ =>
    show win0_3.index ⟨(i 0).val / 512, ht⟩ (1 : Fin 2) * 4096 ≤ (i 1).val
      ∧ (i 1).val < win0_3.index ⟨(i 0).val / 512, ht⟩ (1 : Fin 2) * 4096 + 4096
    omega

/-- THE OUTPUT ARRAY after the run is `flat` of the three arrays as the region finds them. -/
theorem final (c : Dev nD) :
    (dats m 0 c).arrAt 3 cfg0.N = flat (V m c main_v0) (V m c main_v1) (V m c main_v5) :=
  (dats m 0 c).arrAt_eq_of_cover 3 _ (fun t _ => flushed_eq m c t) cover

end Cert.Lora.Blocks

end
-- ==== Proof.LoraOperands.lean ====
/-
  What the kernel's region finds in its three input arrays.

  Before the region the program prepares its operands on the host: `x : [4, 2048, 4096]` is laid out as
  `[8192, 4096]` (row `p · 2048 + q` is row `(p, q)`), `A` changes float format only, and `B` is transposed and every
  entry multiplied by the scale before a change of format. At the ideal values a change of format is the identity, so
  the three arrays read, index by index, `x[p, q, d]`, `A[r, d]` and `B[o, r] · 2`.
-/
import proofs.«145589_j14998025797849_2_alg».proof.Proof.Gen.KernelIdeal.Frame
import proofs.«145589_j14998025797849_2_alg».proof.Proof.LoraSpec
import Idealize.ShloMosaic.Lib.StableHlo.Run
import Idealize.ShloMosaic.Lib.Pipeline.Value
import Idealize.ShloMosaic.Lib.ValueIdx

noncomputable section

namespace Cert.Lora.Operands

open Idealize.ShloMosaic Idealize.ShloMosaic.TcCoe Idealize.SL.Sem Idealize.ShloMosaic.StableHlo
open Idealize.ShloMosaic.ValueIdx Cert.KernelIdeal Cert.KernelIdeal.Gen Cert.Lora

variable (m : (ℓ : Loc nD τ sig) → Buf (Elt Ideal) ℓ)

/-- The three argument arrays on core `c`, as plain functions of an index. -/
abbrev argX (c : Dev nD) : SX.Idx → EReal := m ((c : Thread nD τ).loc main_arg0)
abbrev argA (c : Dev nD) : SA.Idx → EReal := m ((c : Thread nD τ).loc main_arg1)
abbrev argB (c : Dev nD) : SB.Idx → EReal := m ((c : Thread nD τ).loc main_arg2)

/-- Row `(p, q)` of `x` is row `p · 2048 + q` of its `[8192, 4096]` layout. -/
def row (p : Fin 4) (q : Fin 2048) : Fin 8192 := ⟨p.val * 2048 + q.val, by have := p.isLt; have := q.isLt; omega⟩

/-- The first window's array is `x` in the `[8192, 4096]` layout. -/
theorem rows_eq (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  rfl

/-- Read at row `p · 2048 + q` it is row `(p, q)` of `x`: the two indices have one row-major position. -/
theorem rows_apply (c : Dev nD) (p : Fin 4) (q : Fin 2048) (d : Fin 4096) :
    (V m c main_v0 : S8192x4096.Idx → EReal) (ix2 (row p q) d) = argX m c (ix3 p q d) := by
  refine (congrFun (rows_eq m c) (ix2 (row p q) d)).trans ?_
  refine shapeCast_apply _ _ (ix2 (row p q) d) (ix3 p q d) ?_
  rw [Shape.rowMajor_val_three, Shape.rowMajor_val_two]
  rfl

/-- The second window's array is `A`, its float format changed. -/
theorem a_eq (c : Dev nD) : (V m c main_v1 : S16x4096.Idx → EReal)
    = (truncf .bf16 (argA m c : FVec Ideal S16x4096 .f32) bitsLt_bf16_f32 : FVec Ideal S16x4096 .bf16) := by
  show StableHlo.after hostOps0 (fun b => m (c, b)) (Proc.devRef .tc main_v1) = _
  after_results

/-- Read at an index it is `A` there. -/
theorem a_apply (c : Dev nD) (j : S16x4096.Idx) :
    (V m c main_v1 : S16x4096.Idx → EReal) j = argA m c j :=
  congrFun (a_eq m c) j

/-- The third window's array is the transpose of `B`, scaled, its float format changed. -/
theorem b_eq (c : Dev nD) : (V m c main_v5 : S16x4096.Idx → EReal)
    = (truncf .bf16 (mulf (transpose S16x4096 [1, 0] (argB m c : FVec Ideal S4096x16 .f32) transposes_S4096x16_S16x4096_1_0)
        (broadcastInDim S16x4096 ![] bcast_S_S16x4096 (constant (F := Ideal) S_ .f32 0x40000000#32)) : FVec Ideal S16x4096 .f32)
        bitsLt_bf16_f32 : FVec Ideal S16x4096 .bf16) := by
  show StableHlo.after hostOps0 (fun b => m (c, b)) (Proc.devRef .tc main_v5) = _
  after_results

/-- Read at `(r, o)` it is `B[o, r]` times the scale. -/
theorem b_apply (c : Dev nD) (r : Fin 16) (o : Fin 4096) :
    (V m c main_v5 : S16x4096.Idx → EReal) (ix2 r o) = argB m c (ix2 o r) * scale := by
  refine (congrFun (b_eq m c) (ix2 r o)).trans ?_
  rw [truncf_apply, mulf_apply,
    transpose_apply [1, 0] _ transposes_S4096x16_S16x4096_1_0 (ix2 r o) (ix2 o r) (fun b => by
      match b with | ⟨0, _⟩ => rfl | ⟨1, _⟩ => rfl)]
  rfl

end Cert.Lora.Operands

end
-- ==== Proof.LoraResult.lean ====
/-
  The kernel program's result is the update.

  After the region the program lays the `[8192, 4096]` output array out as `[4, 2048, 4096]`: entry `(p, q, o)` is
  entry `(p · 2048 + q, o)` of the array. There the region left `Σ_r (Σ_d X[p · 2048 + q, d] · A'[r, d]) · B'[r, o]` of
  the arrays it found, which are `x[p, q, d]`, `A[r, d]` and `B[o, r] · 2`. Moving the factor 2 out of the sum over
  `r` — associativity of the product, and a nonnegative real factor distributing over a sum of extended reals —
  gives the update as specified, at every extended-real input.
-/
import proofs.«145589_j14998025797849_2_alg».proof.Proof.LoraBlocks
import proofs.«145589_j14998025797849_2_alg».proof.Proof.LoraOperands
import proofs.«145589_j14998025797849_2_alg».proof.Proof.LoraSpec
import Idealize.ShloMosaic.Lib.StableHlo.Run

noncomputable section

open scoped BigOperators

namespace Cert.Lora.Result

open Idealize.ShloMosaic Idealize.ShloMosaic.TcCoe Idealize.SL.Sem Idealize.ShloMosaic.StableHlo
open Idealize.ShloMosaic.ValueIdx Cert.KernelIdeal Cert.KernelIdeal.Gen
open Cert.Lora Cert.Lora.Operands Cert.Lora.Blocks

variable (m : (ℓ : Loc nD τ sig) → Buf (Elt Ideal) ℓ)

/-- The result buffer after the host's last operation: the region's output array in the `[4, 2048, 4096]` layout. -/
theorem tail_eq (c : Dev nD) :
    (Pipeline.afterTail₀ cfgs (dats m) 0 (V0 m) [hostOps1] c main_v7 : S4x2048x4096.Idx → EReal)
      = shapeCast S4x2048x4096 (flat (V m c main_v0) (V m c main_v1) (V m c main_v5)) shapeCasts_S8192x4096_S4x2048x4096 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6)
      = flat (V m c main_v0) (V m c main_v1) (V m c main_v5) :=
    (Pipeline.withArrays_arr spec0 launch0.win.arr_inj c _ _ 3).trans (final m c)
  rw [e]
  rfl

/-- The region's output at row `p · 2048 + q`, column `o` is the update at `(p, q, o)`: the scale moves out of the sum. -/
theorem flat_apply (c : Dev nD) (p : Fin 4) (q : Fin 2048) (o : Fin 4096) :
    flatAt (V m c main_v0) (V m c main_v1) (V m c main_v5) (row p q) o
      = lora (argX m c) (argA m c) (argB m c) (ix3 p q o) := by
  show flatAt (V m c main_v0) (V m c main_v1) (V m c main_v5) (row p q) o
    = (∑ r : Fin 16, hidden (argX m c) (argA m c) p q r * argB m c (ix2 o r)) * scale
  unfold flatAt
  refine (Finset.sum_congr rfl fun r _ => ?_).trans
    (scale_inside (fun r => hidden (argX m c) (argA m c) p q r) (fun r => argB m c (ix2 o r)))
  rw [b_apply m c r o]
  exact congrArg (· * (argB m c (ix2 o r) * scale))
    (Finset.sum_congr rfl fun d _ => by rw [rows_apply m c p q d, a_apply m c (ix2 r d)])

/-- The result buffer, index by index. -/
theorem result_apply (c : Dev nD) (i : S4x2048x4096.Idx) :
    (Pipeline.afterTail₀ cfgs (dats m) 0 (V0 m) [hostOps1] c main_v7 : S4x2048x4096.Idx → EReal) i
      = lora (argX m c) (argA m c) (argB m c) i := by
  obtain ⟨p, q, o, rfl⟩ : ∃ (p : Fin 4) (q : Fin 2048) (o : Fin 4096), i = ix3 p q o := ⟨i 0, i 1, i 2, eq_ix3 i⟩
  refine (congrFun (tail_eq m c) (ix3 p q o)).trans ?_
  refine (shapeCast_apply _ shapeCasts_S8192x4096_S4x2048x4096 (ix3 p q o) (ix2 (row p q) o) ?_).trans (flat_apply m c p q o)
  rw [Shape.rowMajor_val_two, Shape.rowMajor_val_three]
  rfl

/-- The result buffer is the update of the three argument arrays. -/
theorem result_eq (c : Dev nD) :
    (Pipeline.afterTail₀ cfgs (dats m) 0 (V0 m) [hostOps1] c main_v7 : S4x2048x4096.Idx → EReal)
      = lora (argX m c) (argA m c) (argB m c) :=
  funext (result_apply m c)

/-- THE KERNEL PROGRAM'S RUN: every weakly fair execution terminates with the result buffer at the update of the three
    argument arrays, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v7) = lora (argX m c) (argA m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Lora.Result

end
-- ==== Proof.lean ====
/-
  A rank-16 update `out = ((x · Aᵀ) · Bᵀ) · 2` of `x : [4, 2048, 4096]` by `A : [16, 4096]` and `B : [4096, 16]`, computed by a
  tiled kernel and by two plain contractions.

  The kernel lays `x` out as `[8192, 4096]`, transposes `B` and multiplies each of its entries by 2 beforehand, and on a
  grid of 16 points computes, for 512 rows at a time, `(X · Aᵀ) · B'` with both products accumulated from zero; the
  blocks tile the output, which is laid out as `[4, 2048, 4096]` again. The reference contracts `x` with `A`, the result
  with `B`, and multiplies the finished array by 2. At the ideal values a change of float format is the identity and every
  product is an exact sum, so entry `(p, q, o)` is `Σ_r h[p, q, r] · (B[o, r] · 2)` on one side and
  `(Σ_r h[p, q, r] · B[o, r]) · 2` on the other, with `h[p, q, r] = Σ_d x[p, q, d] · A[r, d]`. The two are one extended
  real because the product is associative and the nonnegative real 2 distributes over any sum of extended reals: the
  equality holds at every input, finite or not, and the precondition is used by the frames' statements only.

  The three programs' frames are their runs with the result dropped; no operation was rewritten by the idealization, so
  there is nothing to preserve beyond the program's own text.
-/
import proofs.«145589_j14998025797849_2_alg».proof.Defs
import proofs.«145589_j14998025797849_2_alg».proof.Proof.Gen.Kernel
import proofs.«145589_j14998025797849_2_alg».proof.Proof.Gen.Kernel.Skeleton
import proofs.«145589_j14998025797849_2_alg».proof.Proof.Gen.Kernel.Launch
import proofs.«145589_j14998025797849_2_alg».proof.Proof.Gen.Kernel.Points
import proofs.«145589_j14998025797849_2_alg».proof.Proof.Gen.Kernel.Frame
import proofs.«145589_j14998025797849_2_alg».proof.Proof.Gen.KernelIdeal
import proofs.«145589_j14998025797849_2_alg».proof.Proof.Gen.KernelIdeal.Skeleton
import proofs.«145589_j14998025797849_2_alg».proof.Proof.Gen.KernelIdeal.Launch
import proofs.«145589_j14998025797849_2_alg».proof.Proof.Gen.KernelIdeal.Points
import proofs.«145589_j14998025797849_2_alg».proof.Proof.Gen.KernelIdeal.Frame
import proofs.«145589_j14998025797849_2_alg».proof.Proof.Gen.ReferenceIdeal
import proofs.«145589_j14998025797849_2_alg».proof.Proof.Gen.ReferenceIdeal.Run
import proofs.«145589_j14998025797849_2_alg».proof.Proof.Gen.ReferenceIdeal.Read
import proofs.«145589_j14998025797849_2_alg».proof.Proof.Gen.Pre_finite_inputs
import proofs.«145589_j14998025797849_2_alg».proof.Proof.LoraReference
import proofs.«145589_j14998025797849_2_alg».proof.Proof.LoraResult
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the kernel program read at the ideal values. -/
theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments both programs end with the update of those arguments in their
    result buffers: the kernel's by its run, the reference's by its run read one operation at a time. -/
theorem algebraic : Cert.algebraic_KernelIdeal_ReferenceIdeal := by
  intro m ρ m' ρ' _ hagree
  refine ⟨fun c => Cert.Lora.lora (Cert.Lora.Operands.argX m c) (Cert.Lora.Operands.argA m c) (Cert.Lora.Operands.argB m c),
    Cert.Lora.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v3_eq _ _ _).trans (Cert.Lora.Reference.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
